-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S128x10000 .f32 .bf16
  ∧ IdealRules.truncf_extf.Statement Cert.KernelIdeal.S1x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x10000 : Shape := ⟨2, ![16384, 10000]⟩
abbrev S10000x128 : Shape := ⟨2, ![10000, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x10000 : S_.BroadcastsInDim S16384x10000 (![] : Fin 0 → Fin S16384x10000.rank)
  reducesTo_S16384x10000_S_d0_1 : S16384x10000.ReducesTo [0, 1] S_
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S16384x128 .f32) (main_arg1 : FVec F S16384x10000 .f32) (main_arg2 : FVec F S10000x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x10000 .f32 := Host.absf main_arg1
  let main_cst_0 : FVec F S_ .f32 := constant S_ .f32 0x7F800000#32
  let main_v5 : FVec F S16384x10000 .f32 := broadcastInDim S16384x10000 ![] bcast_S_S16384x10000 main_cst_0
  let main_v6 : IVec S16384x10000 1 := cmpf .olt main_v4 main_v5
  let main_c_1 : IVec S_ 1 := constantI S_ 1 1#1
  let main_v7 : IVec S_ 1 := (fun x v => Host.reduce IntOp.andi x v reducesTo_S16384x10000_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  main_v13
-- ==== Kernel.lean ====
abbrev S16384x128 : Shape := ⟨2, ![16384, 128]⟩
abbrev S16384x10000 : Shape := ⟨2, ![16384, 10000]⟩
abbrev S10000x128 : Shape := ⟨2, ![10000, 128]⟩
abbrev S2x10000x128 : Shape := ⟨3, ![2, 10000, 128]⟩
abbrev S2x1x10000 : Shape := ⟨3, ![2, 1, 10000]⟩
abbrev S128x10000 : Shape := ⟨2, ![128, 10000]⟩
abbrev S128x128 : Shape := ⟨2, ![128, 128]⟩
abbrev S1x10000x128 : Shape := ⟨3, ![1, 10000, 128]⟩
abbrev S1x1x10000 : Shape := ⟨3, ![1, 1, 10000]⟩
abbrev S1x10000 : Shape := ⟨2, ![1, 10000]⟩
abbrev S10000 : Shape := ⟨1, ![10000]⟩
abbrev S_ : Shape := ⟨0, ![]⟩
abbrev S10000x1 : Shape := ⟨2, ![10000, 1]⟩

abbrev nBuf : Space → Nat
  | .hbm => 20
  | .vmem => 9
  | .smem => 0
  | _ => 0

abbrev bufTy : (tb : Table) → Fin (tcTables nBuf tb) → BufTy
  | .hbm, ⟨0, _⟩ => ⟨S16384x128, .f32⟩
  | .hbm, ⟨1, _⟩ => ⟨S16384x10000, .f32⟩
  | .hbm, ⟨2, _⟩ => ⟨S10000x128, .f32⟩
  | .hbm, ⟨3, _⟩ => ⟨S10000x128, .bf16⟩
  | .hbm, ⟨4, _⟩ => ⟨S2x10000x128, .f32⟩
  | .hbm, ⟨5, _⟩ => ⟨S2x1x10000, .f32⟩
  | .hbm, ⟨6, _⟩ => ⟨S_, .f32⟩
  | .hbm, ⟨7, _⟩ => ⟨S10000x128, .f32⟩
  | .hbm, ⟨8, _⟩ => ⟨S_, .f32⟩
  | .hbm, ⟨9, _⟩ => ⟨S1x10000, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | .local _ .vmem, ⟨0, _⟩ => ⟨S128x10000, .f32⟩
  | .local _ .vmem, ⟨1, _⟩ => ⟨S128x10000, .f32⟩
  | .local _ .vmem, ⟨2, _⟩ => ⟨S128x128, .f32⟩
  | .local _ .vmem, ⟨3, _⟩ => ⟨S128x128, .f32⟩
  | .local _ .vmem, ⟨4, _⟩ => ⟨S10000x128, .bf16⟩
  | .local _ .vmem, ⟨5, _⟩ => ⟨S1x10000x128, .f32⟩
  | .local _ .vmem, ⟨6, _⟩ => ⟨S1x1x10000, .f32⟩
  | .local _ .vmem, ⟨7, _⟩ => ⟨S10000x128, .f32⟩
  | .local _ .vmem, ⟨8, _⟩ => ⟨S1x10000, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v27 : BitVec 1 := Scalar.cmpi .eq arg1 c63_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x10000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  inb_S128x10000_S128x10000_0_0 : ∀ a, (![0, 0] : Fin 2 → Nat) a + S128x10000.size a ≤ S128x10000.size a
  h_S128x10000 : 0 < S128x10000.numel
  inb_S128x128_S128x128_0_0 : ∀ a, (![0, 0] : Fin 2 → Nat) a + S128x128.size a ≤ S128x128.size a
  h_S128x128 : 0 < S128x128.numel
  reduces_S128x10000_S10000 : S128x10000.Reduces [0] S10000
  shapeCasts_S10000_S1x10000 : S10000.ShapeCasts S1x10000
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  shapeCasts_S10000x128_S1x10000x128 : S10000x128.ShapeCasts S1x10000x128
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  shapeCasts_S1x10000_S1x1x10000 : S1x10000.ShapeCasts S1x1x10000
  reducesTo_S2x10000x128_S10000x128_d0 : S2x10000x128.ReducesTo [0] S10000x128
  h_S_ : 0 < S_.numel
  reducesTo_S2x1x10000_S1x10000_d0 : S2x1x10000.ReducesTo [0] S1x10000
  transposes_S1x10000_S10000x1_1_0 : S1x10000.Transposes [1, 0] S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S128x10000_S10000x128_S128x128_1_0_0_1_n_n_wf : DotDims.WF S128x10000 S10000x128 S128x128 [1] [0] [0] [1] [] []
  dot_S128x10000_S128x128_S10000x128_0_0_1_1_n_n_wf : DotDims.WF S128x10000 S128x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S16384x10000.size a
  hwx0_0 : ∀ i : grid0.Coords, EltTy.bits .f32 = 32 ∨ (Rect.block (s := S16384x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S16384x128.size a
  hwx0_1 : ∀ i : grid0.Coords, EltTy.bits .f32 = 32 ∨ (Rect.block (s := S16384x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .bf16 = 32 ∨ (Rect.block (s := S10000x128) S10000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10000x128.size a ≤ S2x10000x128.size a
  hwx0_3 : ∀ i : grid0.Coords, EltTy.bits .f32 = 32 ∨ (Rect.block (s := S2x10000x128) S1x10000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x10000.size a ≤ S2x1x10000.size a
  hwx0_4 : ∀ i : grid0.Coords, EltTy.bits .f32 = 32 ∨ (Rect.block (s := S2x1x10000) S1x1x10000.size (cc0_transform_4 i) (hinb0_4 i)).WholeWords (EltTy.packing .f32)

variable [Facts₀]

def dot_S128x10000_S10000x128_S128x128_1_0_0_1_n_n : DotDims S128x10000 S10000x128 S128x128 where
  lhsContracting := [1]
  rhsContracting := [0]
  lhsNonContracting := [0]
  rhsNonContracting := [1]
  lhsBatch := []
  rhsBatch := []
  wf := dot_S128x10000_S10000x128_S128x128_1_0_0_1_n_n_wf
def dot_S128x10000_S128x128_S10000x128_0_0_1_1_n_n : DotDims S128x10000 S128x128 S10000x128 where
  lhsContracting := [0]
  rhsContracting := [0]
  lhsNonContracting := [1]
  rhsNonContracting := [1]
  lhsBatch := []
  rhsBatch := []
  wf := dot_S128x10000_S128x128_S10000x128_0_0_1_1_n_n_wf

abbrev win0_0 : Pipeline.Window sig grid0 :=
  Pipeline.Window.ofSpec (Memref.whole main_arg1) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x10000x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1x10000.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x10000 : Shape := ⟨2, ![16384, 10000]⟩
abbrev S10000x128 : Shape := ⟨2, ![10000, 128]⟩
abbrev S10000x16384 : Shape := ⟨2, ![10000, 16384]⟩
abbrev S_ : Shape := ⟨0, ![]⟩
abbrev S10000 : Shape := ⟨1, ![10000]⟩
abbrev S10000x1 : Shape := ⟨2, ![10000, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x10000, .f32⟩
  | .hbm, ⟨2, _⟩ => ⟨S10000x128, .f32⟩
  | .hbm, ⟨3, _⟩ => ⟨S16384x128, .f32⟩
  | .hbm, ⟨4, _⟩ => ⟨S16384x128, .f32⟩
  | .hbm, ⟨5, _⟩ => ⟨S10000x16384, .f32⟩
  | .hbm, ⟨6, _⟩ => ⟨S10000x128, .f32⟩
  | .hbm, ⟨7, _⟩ => ⟨S10000x16384, .f32⟩
  | .hbm, ⟨8, _⟩ => ⟨S_, .f32⟩
  | .hbm, ⟨9, _⟩ => ⟨S10000, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | .hbm, ⟨19, _⟩ => ⟨S10000x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S16384x10000_S10000x16384_1_0 : S16384x10000.Transposes [1, 0] S10000x16384
  reducesTo_S10000x16384_S10000_d1 : S10000x16384.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S16384x10000_S10000x128_S16384x128_1_0_0_1_n_n_wf : DotDims.WF S16384x10000 S10000x128 S16384x128 [1] [0] [0] [1] [] []
  dot_S10000x16384_S16384x128_S10000x128_1_0_0_1_n_n_wf : DotDims.WF S10000x16384 S16384x128 S10000x128 [1] [0] [0] [1] [] []

variable [Facts₀]

def dot_S16384x10000_S10000x128_S16384x128_1_0_0_1_n_n : DotDims S16384x10000 S10000x128 S16384x128 where
  lhsContracting := [1]
  rhsContracting := [0]
  lhsNonContracting := [0]
  rhsNonContracting := [1]
  lhsBatch := []
  rhsBatch := []
  wf := dot_S16384x10000_S10000x128_S16384x128_1_0_0_1_n_n_wf
def dot_S10000x16384_S16384x128_S10000x128_1_0_0_1_n_n : DotDims S10000x16384 S16384x128 S10000x128 where
  lhsContracting := [1]
  rhsContracting := [0]
  lhsNonContracting := [0]
  rhsNonContracting := [1]
  lhsBatch := []
  rhsBatch := []
  wf := dot_S10000x16384_S16384x128_S10000x128_1_0_0_1_n_n_wf

class Facts : Prop extends Facts₀ where

variable [Facts]
-- ==== Proof.Spec.lean ====
/-
  The mathematics of one step of the class-centre update, over the extended reals.

  Sample `n` has a label row `L n` over 10000 classes and a feature row `P n` over 128 features; class `c` has a
  centre row `Z c`. The sample's label-weighted centre is `∑ k, L n k * Z k d`, its pull on class `c` is
  `L n c * ((∑ k, L n k * Z k d) - P n d)`, and the new centre is
  `Z c d - 1/2 * (∑ n, pull n c d) / ((0 + ∑ n, L n c) + 1)`.

  The 16384 samples can be summed in one go, or block by block: 128 blocks of 128 consecutive rows, the blocks
  0–63 accumulated into one running total and the blocks 64–127 into another, each running total restarted at the
  first block of its half. Addition on the extended reals is commutative and associative, so the two ways agree
  whatever the entries are (no finiteness is needed): `carried_last` and `sum_by_blocks`.
-/
import Idealize.ShloMosaic.PureOps.Ideal
import Idealize.ShloMosaic.PureOps.Ideal.Laws
import Idealize.ShloMosaic.Lib.ValueIdx

noncomputable section

namespace Cert.CentreStep

open Idealize.ShloMosaic

/-- Row `r` of block `t` (blocks are 128 consecutive sample rows; `t` is read modulo 128 so that the function is total). -/
def blockRow (t : ℕ) (r : Fin 128) : Fin 16384 :=
  ⟨(t % 128) * 128 + r.val, by have := r.isLt; have := Nat.mod_lt t (by decide : 0 < 128); omega⟩

theorem blockRow_val (t : ℕ) (ht : t < 128) (r : Fin 128) : (blockRow t r).val = t * 128 + r.val := by
  unfold blockRow; simp only [Nat.mod_eq_of_lt ht]

/-- Sample `n`'s pull on class `c` at feature `d`. -/
def pull (L : Fin 16384 → Fin 10000 → EReal) (P : Fin 16384 → Fin 128 → EReal) (Z : Fin 10000 → Fin 128 → EReal)
    (n : Fin 16384) (c : Fin 10000) (d : Fin 128) : EReal :=
  L n c * ((∑ k : Fin 10000, L n k * Z k d) - P n d)

/-- The pulls of block `t`'s 128 samples, summed. -/
def blockGrad (L : Fin 16384 → Fin 10000 → EReal) (P : Fin 16384 → Fin 128 → EReal) (Z : Fin 10000 → Fin 128 → EReal)
    (t : ℕ) (c : Fin 10000) (d : Fin 128) : EReal :=
  ∑ r : Fin 128, pull L P Z (blockRow t r) c d

/-- The label mass of class `c` in block `t`. -/
def blockCount (L : Fin 16384 → Fin 10000 → EReal) (t : ℕ) (c : Fin 10000) : EReal :=
  ∑ r : Fin 128, L (blockRow t r) c

/-- A running total over the blocks in order, restarted at every block whose number is a multiple of 64: after block
    `n` it holds the sum of the blocks of `n`'s half up to `n`. -/
def carried {M : Type*} [AddCommMonoid M] (g : ℕ → M) : ℕ → M
  | 0 => g 0
  | n + 1 => if (n + 1) % 64 = 0 then g (n + 1) else carried g n + g (n + 1)

/-- After the last block of a half the running total is that half's sum. -/
theorem carried_last {M : Type*} [AddCommMonoid M] (g : ℕ → M) (p : ℕ) :
    carried g (64 * p + 63) = ∑ k ∈ Finset.range 64, g (64 * p + k) := by
  have key : ∀ i, i < 64 → carried g (64 * p + i) = ∑ k ∈ Finset.range (i + 1), g (64 * p + k) := by
    intro i
    induction i with
    | zero =>
      intro _
      rw [Finset.sum_range_one]
      cases p with
      | zero => rfl
      | succ q =>
        rw [show 64 * (q + 1) + 0 = (64 * q + 63) + 1 from by omega, carried,
          if_pos (by omega)]
    | succ i ih =>
      intro h
      rw [show 64 * p + (i + 1) = (64 * p + i) + 1 from by omega, carried,
        if_neg (by omega), ih (by omega), Finset.sum_range_succ _ (i + 1), Nat.add_assoc]
  exact key 63 (by decide)

/-- Summing the two halves, each block by block and each block row by row, sums every sample once. -/
theorem sum_by_blocks {M : Type*} [AddCommMonoid M] (f : Fin 16384 → M) :
    ∑ p : Fin 2, ∑ k ∈ Finset.range 64, ∑ r : Fin 128, f (blockRow (64 * p.val + k) r) = ∑ n : Fin 16384, f n := by
  have halves : ∀ G : ℕ → M,
      ∑ p : Fin 2, ∑ k ∈ Finset.range 64, G (64 * p.val + k) = ∑ t ∈ Finset.range 128, G t := by
    intro G
    rw [Fin.sum_univ_two, show (128 : ℕ) = 64 + 64 from rfl, Finset.sum_range_add]
    simp
  rw [halves (fun t => ∑ r : Fin 128, f (blockRow t r)),
    ← Fin.sum_univ_eq_sum_range (fun t => ∑ r : Fin 128, f (blockRow t r)) 128,
    ← Fintype.sum_prod_type (f := fun x : Fin 128 × Fin 128 => f (blockRow x.1.val x.2))]
  refine Fintype.sum_equiv (finProdFinEquiv : Fin 128 × Fin 128 ≃ Fin 16384) _ _ fun x => ?_
  congr 1
  apply Fin.ext
  rw [blockRow_val _ x.1.isLt]
  simp [finProdFinEquiv]
  omega

/-- The total pull on class `c` at feature `d`. -/
def grad (L : Fin 16384 → Fin 10000 → EReal) (P : Fin 16384 → Fin 128 → EReal) (Z : Fin 10000 → Fin 128 → EReal)
    (c : Fin 10000) (d : Fin 128) : EReal :=
  ∑ n : Fin 16384, pull L P Z n c d

/-- The label mass of class `c`. -/
def count (L : Fin 16384 → Fin 10000 → EReal) (c : Fin 10000) : EReal :=
  ∑ n : Fin 16384, L n c

/-- The updated centre: `Z - 1/2 * grad / ((0 + count) + 1)`, the three numbers as the f32 words that denote them. -/
def updated (L : Fin 16384 → Fin 10000 → EReal) (P : Fin 16384 → Fin 128 → EReal) (Z : Fin 10000 → Fin 128 → EReal)
    (c : Fin 10000) (d : Fin 128) : EReal :=
  Z c d - Ideal.ofBits .f32 0x3F000000#32
    * Ideal.div (grad L P Z c d) ((Ideal.ofBits .f32 0x00000000#32 + count L c) + Ideal.ofBits .f32 0x3F800000#32)

end Cert.CentreStep

end
-- ==== Proof.Algebra.lean ====
/-
  The closing algebra of the class-centre update: the two half totals, added, are the totals over all samples.

  Each half's running total after its last block is the sum of that half's 64 blocks (`carried_last`), and the two
  halves' blocks together contain every sample exactly once (`sum_by_blocks`). A leading zero added to the total pull
  disappears; the zero in front of the label mass is present on both sides.
-/
import proofs.«159653_j22136261443658_2_alg».proof.Proof.Spec

noncomputable section

namespace Cert.CentreStep

open Idealize.ShloMosaic

/-- The two halves' pull totals add up to the total pull. -/
theorem sum_halves_grad (L : Fin 16384 → Fin 10000 → EReal) (P : Fin 16384 → Fin 128 → EReal)
    (Z : Fin 10000 → Fin 128 → EReal) (c : Fin 10000) (d : Fin 128) :
    ∑ p : Fin 2, carried (fun t => blockGrad L P Z t c d) (64 * p.val + 63) = grad L P Z c d := by
  unfold grad
  rw [← sum_by_blocks (fun n => pull L P Z n c d)]
  refine Finset.sum_congr rfl fun p _ => ?_
  rw [carried_last]
  rfl

/-- The two halves' label masses add up to the label mass. -/
theorem sum_halves_count (L : Fin 16384 → Fin 10000 → EReal) (c : Fin 10000) :
    ∑ p : Fin 2, carried (fun t => blockCount L t c) (64 * p.val + 63) = count L c := by
  unfold count
  rw [← sum_by_blocks (fun n => L n c)]
  refine Finset.sum_congr rfl fun p _ => ?_
  rw [carried_last]
  rfl

/-- From the two halves' running totals to the updated centre. -/
theorem updated_of_halves (L : Fin 16384 → Fin 10000 → EReal) (P : Fin 16384 → Fin 128 → EReal)
    (Z : Fin 10000 → Fin 128 → EReal) (A3 : Fin 2 → Fin 10000 → Fin 128 → EReal) (A4 : Fin 2 → Fin 10000 → EReal)
    (h3 : ∀ p k d, A3 p k d = carried (fun t => blockGrad L P Z t k d) (64 * p.val + 63))
    (h4 : ∀ p k, A4 p k = carried (fun t => blockCount L t k) (64 * p.val + 63)) (c : Fin 10000) (d : Fin 128) :
    Z c d - Ideal.ofBits .f32 0x3F000000#32
        * Ideal.div (Ideal.ofBits .f32 0x00000000#32 + ∑ p : Fin 2, A3 p c d)
            ((Ideal.ofBits .f32 0x00000000#32 + ∑ p : Fin 2, A4 p c) + Ideal.ofBits .f32 0x3F800000#32)
      = updated L P Z c d := by
  have e3 : ∑ p : Fin 2, A3 p c d = grad L P Z c d := by
    rw [← sum_halves_grad]
    exact Finset.sum_congr rfl fun p _ => h3 p c d
  have e4 : ∑ p : Fin 2, A4 p c = count L c := by
    rw [← sum_halves_count]
    exact Finset.sum_congr rfl fun p _ => h4 p c
  unfold updated
  rw [e3, e4]
  simp only [Ideal.ofBits_zero_f32, zero_add]

end Cert.CentreStep

end
-- ==== Proof.Payload.lean ====
/-
  The six pure values the kernel body stores, read at an index over the extended reals.

  The body keeps two running totals: a [10000, 128] array of pulls and a [1, 10000] row of label masses. At the first
  block of a half both are restarted at zero; at every block the labels block `L` ([128, 10000]), the features block `P`
  ([128, 128]) and the centres `Z` ([10000, 128]) add `∑ r, L r c * ((∑ k, L r k * Z k d) - P r d)` to the first and
  `∑ r, L r c` to the second; at the last block of a half both are copied out under a leading unit axis. Over the
  extended reals a change of float format is the identity, a matrix product into a zero accumulator is the sum of the
  products over the contracted axis, and a sum over the rows is the sum over the row coordinate.
-/
import proofs.«159653_j22136261443658_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The two matrix products -/

/-! The first product, [128, 10000] by [10000, 128], contracts axis 1 of the left operand with axis 0 of the right one:
at the result's index `(r, d)` and contraction position `k` the operands are read at `(r, k)` and `(k, d)`. -/

theorem rows_dot_lhs_0 (j : S128x128.Idx) (q : dot_S128x10000_S10000x128_S128x128_1_0_0_1_n_n.contr.Idx) :
    (dot_S128x10000_S10000x128_S128x128_1_0_0_1_n_n.lhsIdx j q 0).val = (j 0).val := by
  unfold DotDims.lhsIdx
  rw [dif_neg (show ¬(0 : Fin S128x10000.rank) ∈ dot_S128x10000_S10000x128_S128x128_1_0_0_1_n_n.lhsBatch by decide),
    dif_pos (show (0 : Fin S128x10000.rank) ∈ dot_S128x10000_S10000x128_S128x128_1_0_0_1_n_n.lhsNonContracting by decide)]
  rfl
theorem rows_dot_lhs_1 (j : S128x128.Idx) (q : dot_S128x10000_S10000x128_S128x128_1_0_0_1_n_n.contr.Idx) :
    (dot_S128x10000_S10000x128_S128x128_1_0_0_1_n_n.lhsIdx j q 1).val = (q ⟨0, by decide⟩).val :=
  dot_S128x10000_S10000x128_S128x128_1_0_0_1_n_n.lhsIdx_val_of_single rfl j q
theorem rows_dot_rhs_0 (j : S128x128.Idx) (q : dot_S128x10000_S10000x128_S128x128_1_0_0_1_n_n.contr.Idx) :
    (dot_S128x10000_S10000x128_S128x128_1_0_0_1_n_n.rhsIdx j q 0).val = (q ⟨0, by decide⟩).val :=
  dot_S128x10000_S10000x128_S128x128_1_0_0_1_n_n.rhsIdx_val_of_single rfl j q
theorem rows_dot_rhs_1 (j : S128x128.Idx) (q : dot_S128x10000_S10000x128_S128x128_1_0_0_1_n_n.contr.Idx) :
    (dot_S128x10000_S10000x128_S128x128_1_0_0_1_n_n.rhsIdx j q 1).val = (j 1).val := by
  unfold DotDims.rhsIdx
  rw [dif_neg (show ¬(1 : Fin S10000x128.rank) ∈ dot_S128x10000_S10000x128_S128x128_1_0_0_1_n_n.rhsBatch by decide),
    dif_pos (show (1 : Fin S10000x128.rank) ∈ dot_S128x10000_S10000x128_S128x128_1_0_0_1_n_n.rhsNonContracting by decide)]
  rfl

/-- The first product contracts the classes: `(a · b) r d = ∑ k, a r k * b k d`. -/
theorem rows_dot_apply (a : FVec Ideal S128x10000 .bf16) (b : FVec Ideal S10000x128 .bf16) (r : Fin 128) (d : Fin 128) :
    matmul dot_S128x10000_S10000x128_S128x128_1_0_0_1_n_n none a b (constant (F := Ideal) S128x128 .f32 0x00000000#32) (ix2 r d)
      = ∑ k : Fin 10000, a (ix2 r k) * b (ix2 k d) := by
  refine (Ideal.matmul_constant_zero_apply dot_S128x10000_S10000x128_S128x128_1_0_0_1_n_n none a b (ix2 r d)).trans ?_
  rw [← Equiv.sum_comp (contrEquiv1 dot_S128x10000_S10000x128_S128x128_1_0_0_1_n_n 10000 rfl rfl).symm]
  refine Finset.sum_congr rfl fun k _ => ?_
  have hk := contrEquiv1_symm_val dot_S128x10000_S10000x128_S128x128_1_0_0_1_n_n 10000 rfl rfl k
  have el : dot_S128x10000_S10000x128_S128x128_1_0_0_1_n_n.lhsIdx (ix2 r d)
      ((contrEquiv1 dot_S128x10000_S10000x128_S128x128_1_0_0_1_n_n 10000 rfl rfl).symm k) = ix2 r k :=
    funext fun x => Fin.ext (by
      match x with
      | ⟨0, _⟩ => exact rows_dot_lhs_0 _ _
      | ⟨1, _⟩ => exact (rows_dot_lhs_1 _ _).trans hk)
  have er : dot_S128x10000_S10000x128_S128x128_1_0_0_1_n_n.rhsIdx (ix2 r d)
      ((contrEquiv1 dot_S128x10000_S10000x128_S128x128_1_0_0_1_n_n 10000 rfl rfl).symm k) = ix2 k d :=
    funext fun x => Fin.ext (by
      match x with
      | ⟨0, _⟩ => exact (rows_dot_rhs_0 _ _).trans hk
      | ⟨1, _⟩ => exact rows_dot_rhs_1 _ _)
  rw [el, er]

/-! The second product, [128, 10000] by [128, 128] into [10000, 128], contracts axis 0 of BOTH operands: at the result's
index `(c, d)` and contraction position `r` the operands are read at `(r, c)` and `(r, d)`. -/

theorem cols_dot_lhs_0 (j : S10000x128.Idx) (q : dot_S128x10000_S128x128_S10000x128_0_0_1_1_n_n.contr.Idx) :
    (dot_S128x10000_S128x128_S10000x128_0_0_1_1_n_n.lhsIdx j q 0).val = (q ⟨0, by decide⟩).val :=
  dot_S128x10000_S128x128_S10000x128_0_0_1_1_n_n.lhsIdx_val_of_single rfl j q
theorem cols_dot_lhs_1 (j : S10000x128.Idx) (q : dot_S128x10000_S128x128_S10000x128_0_0_1_1_n_n.contr.Idx) :
    (dot_S128x10000_S128x128_S10000x128_0_0_1_1_n_n.lhsIdx j q 1).val = (j 0).val := by
  unfold DotDims.lhsIdx
  rw [dif_neg (show ¬(1 : Fin S128x10000.rank) ∈ dot_S128x10000_S128x128_S10000x128_0_0_1_1_n_n.lhsBatch by decide),
    dif_pos (show (1 : Fin S128x10000.rank) ∈ dot_S128x10000_S128x128_S10000x128_0_0_1_1_n_n.lhsNonContracting by decide)]
  rfl
theorem cols_dot_rhs_0 (j : S10000x128.Idx) (q : dot_S128x10000_S128x128_S10000x128_0_0_1_1_n_n.contr.Idx) :
    (dot_S128x10000_S128x128_S10000x128_0_0_1_1_n_n.rhsIdx j q 0).val = (q ⟨0, by decide⟩).val :=
  dot_S128x10000_S128x128_S10000x128_0_0_1_1_n_n.rhsIdx_val_of_single rfl j q
theorem cols_dot_rhs_1 (j : S10000x128.Idx) (q : dot_S128x10000_S128x128_S10000x128_0_0_1_1_n_n.contr.Idx) :
    (dot_S128x10000_S128x128_S10000x128_0_0_1_1_n_n.rhsIdx j q 1).val = (j 1).val := by
  unfold DotDims.rhsIdx
  rw [dif_neg (show ¬(1 : Fin S128x128.rank) ∈ dot_S128x10000_S128x128_S10000x128_0_0_1_1_n_n.rhsBatch by decide),
    dif_pos (show (1 : Fin S128x128.rank) ∈ dot_S128x10000_S128x128_S10000x128_0_0_1_1_n_n.rhsNonContracting by decide)]
  rfl

/-- The second product contracts the rows of both operands: `(aᵀ · b) c d = ∑ r, a r c * b r d`. -/
theorem cols_dot_apply (a : FVec Ideal S128x10000 .bf16) (b : FVec Ideal S128x128 .bf16) (c : Fin 10000) (d : Fin 128) :
    matmul dot_S128x10000_S128x128_S10000x128_0_0_1_1_n_n none a b (constant (F := Ideal) S10000x128 .f32 0x00000000#32) (ix2 c d)
      = ∑ r : Fin 128, a (ix2 r c) * b (ix2 r d) := by
  refine (Ideal.matmul_constant_zero_apply dot_S128x10000_S128x128_S10000x128_0_0_1_1_n_n none a b (ix2 c d)).trans ?_
  rw [← Equiv.sum_comp (contrEquiv1 dot_S128x10000_S128x128_S10000x128_0_0_1_1_n_n 128 rfl rfl).symm]
  refine Finset.sum_congr rfl fun r _ => ?_
  have hr := contrEquiv1_symm_val dot_S128x10000_S128x128_S10000x128_0_0_1_1_n_n 128 rfl rfl r
  have el : dot_S128x10000_S128x128_S10000x128_0_0_1_1_n_n.lhsIdx (ix2 c d)
      ((contrEquiv1 dot_S128x10000_S128x128_S10000x128_0_0_1_1_n_n 128 rfl rfl).symm r) = ix2 r c :=
    funext fun x => Fin.ext (by
      match x with
      | ⟨0, _⟩ => exact (cols_dot_lhs_0 _ _).trans hr
      | ⟨1, _⟩ => exact cols_dot_lhs_1 _ _)
  have er : dot_S128x10000_S128x128_S10000x128_0_0_1_1_n_n.rhsIdx (ix2 c d)
      ((contrEquiv1 dot_S128x10000_S128x128_S10000x128_0_0_1_1_n_n 128 rfl rfl).symm r) = ix2 r d :=
    funext fun x => Fin.ext (by
      match x with
      | ⟨0, _⟩ => exact (cols_dot_rhs_0 _ _).trans hr
      | ⟨1, _⟩ => exact cols_dot_rhs_1 _ _)
  rw [el, er]

/-! ## The sum over the rows -/

/-- The sum of a [128, 10000] block over its rows, at class `c`. -/
theorem rows_sum_apply (v : FVec Ideal S128x10000 .f32) (hφ : FKind.Formats .f32)
    (hacc : (0x00000000#32 : BitVec 32) = FKind.add.neutral .f32 hφ) (c : Fin 10000) :
    multiReduction (F := Ideal) .add [0] S10000 v 0x00000000#32 reduces_S128x10000_S10000 hφ hacc (ix1 c)
      = ∑ r : Fin 128, v (ix2 r c) := by
  refine (Ideal.multiReduction_add_single v 0x00000000#32 reduces_S128x10000_S10000 hφ hacc (ix1 c)).trans ?_
  refine Finset.sum_congr rfl fun r _ => ?_
  exact congrArg v (funext fun x => Fin.ext (by match x with | ⟨0, _⟩ => rfl | ⟨1, _⟩ => rfl))

/-! ## The payloads -/

/-- The pulls restart at zero. -/
theorem zero_grad_apply (c : Fin 10000) (d : Fin 128) : k0_pay1 (F := Ideal) (ix2 c d) = 0 := by
  unfold k0_pay1
  refine (congrFun (shapeCast_self _ _) (ix2 c d)).trans ?_
  exact Ideal.ofBits_zero_f32

/-- The label masses restart at zero. -/
theorem zero_count_apply (c : Fin 10000) : k0_pay2 (F := Ideal) (ix2 (0 : Fin 1) c) = 0 := by
  unfold k0_pay2
  refine (congrFun (shapeCast_self _ _) (ix2 (0 : Fin 1) c)).trans ?_
  exact Ideal.ofBits_zero_f32

/-- One block's pulls are added to the running total. -/
theorem grad_step_apply (v3 : Vec Ideal S128x10000 .f32) (v5 : Vec Ideal S10000x128 .bf16) (v8 : Vec Ideal S128x128 .f32)
    (v12 : Vec Ideal S10000x128 .f32) (c : Fin 10000) (d : Fin 128) :
    k0_pay3 v3 v5 v8 v12 (ix2 c d)
      = v12 (ix2 c d) + ∑ r : Fin 128, v3 (ix2 r c) * ((∑ k : Fin 10000, v3 (ix2 r k) * v5 (ix2 k d)) - v8 (ix2 r d)) := by
  unfold k0_pay3
  refine (congrFun (shapeCast_self _ _) (ix2 c d)).trans ?_
  refine congrArg (v12 (ix2 c d) + ·) ?_
  refine (cols_dot_apply _ _ c d).trans ?_
  refine Finset.sum_congr rfl fun r _ => ?_
  refine congrArg (v3 (ix2 r c) * ·) ?_
  refine congrArg (· - v8 (ix2 r d)) ?_
  refine (rows_dot_apply _ _ r d).trans ?_
  refine Finset.sum_congr rfl fun k _ => ?_
  exact congrArg (v3 (ix2 r k) * ·) (congrFun (shapeCast_self v5 _) (ix2 k d))

/-- One block's label masses are added to the running total. -/
theorem count_step_apply (v3 : Vec Ideal S128x10000 .f32) (v22 : Vec Ideal S1x10000 .f32) (c : Fin 10000) :
    k0_pay4 v3 v22 (ix2 (0 : Fin 1) c) = v22 (ix2 (0 : Fin 1) c) + ∑ r : Fin 128, v3 (ix2 r c) := by
  unfold k0_pay4
  refine (congrFun (shapeCast_self _ _) (ix2 (0 : Fin 1) c)).trans ?_
  refine congrArg (v22 (ix2 (0 : Fin 1) c) + ·) ?_
  refine (shapeCast_a_1a_apply _ _ (0 : Fin 1) c).trans ?_
  exact rows_sum_apply v3 _ _ c

/-- The pulls are copied out under a leading unit axis. -/
theorem grad_out_apply (v : Vec Ideal S10000x128 .f32) (c : Fin 10000) (d : Fin 128) :
    k0_pay5 v (ix3 (0 : Fin 1) c d) = v (ix2 c d) := by
  unfold k0_pay5
  exact shapeCast_ab_1ab_apply v _ (0 : Fin 1) c d

/-- The label masses are copied out under a leading unit axis. -/
theorem count_out_apply (v : Vec Ideal S1x10000 .f32) (c : Fin 10000) :
    k0_pay6 v (ix3 (0 : Fin 1) (0 : Fin 1) c) = v (ix2 (0 : Fin 1) c) := by
  unfold k0_pay6
  exact shapeCast_ab_1ab_apply v _ (0 : Fin 1) (0 : Fin 1) c

end Cert.KernelIdeal.Payload

end
-- ==== Proof.Pieces.lean ====
/-
  What one run of the body leaves behind, in each of its three control cases, as the pure values of Skeleton.lean applied
  to the blocks it was given: `x0` the labels block, `x1` the features block, `x2` the centres, and `xs0`, `xs1` what
  the two running totals held before.

  * First block of a half: the totals are restarted, so they end at one step from zero.
  * A middle block: the totals end one step further.
  * Last block of a half: the totals end one step further and are copied, as they then stand, to the two outputs.

  Each buffer is stored whole, so what it ends holding is the value of the last store into it, and a load of a buffer
  stored earlier in the same run reads that store's value. Nothing here depends on what a float is.
-/
import proofs.«159653_j22136261443658_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

/-- The offsets of a whole rank-2 access are zero. -/
theorem hz2 : (![0, 0] : Fin 2 → Nat) = fun _ => 0 := funext fun a => by fin_cases a <;> rfl
/-- The offsets of a whole rank-3 access are zero. -/
theorem hz3 : (![0, 0, 0] : Fin 3 → Nat) = fun _ => 0 := funext fun a => by fin_cases a <;> rfl

/-! ## First block of a half -/

/-- The pulls after the first block of a half: one step from the zero total (the zero total is stored, read back, and stepped). -/
theorem grad_A (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : cond0_0 i) (hc1 : ¬cond0_1 i)
    (x0 : Vec F S128x10000 .f32) (x1 : Vec F S128x128 .f32) (x2 : Vec F S10000x128 .bf16) :
    sout0_A_0 c i arg2 harg2 arg3 harg3 arg4 harg4 arg5 harg5 arg6 harg6 arg7 harg7 arg8 harg8 hc0 hc1 x0 x1 x2 = k0_pay3 x0 x2 x1 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S10000x128) hz2, View.readCov_unit_zero (S := S10000x128) _ hz2]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]

/-- The label masses after the first block of a half: one step from the zero total. -/
theorem count_A (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : cond0_0 i) (hc1 : ¬cond0_1 i)
    (x0 : Vec F S128x10000 .f32) (x1 : Vec F S128x128 .f32) (x2 : Vec F S10000x128 .bf16) :
    sout0_A_1 c i arg2 harg2 arg3 harg3 arg4 harg4 arg5 harg5 arg6 harg6 arg7 harg7 arg8 harg8 hc0 hc1 x0 x1 x2 = k0_pay4 x0 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x10000) hz2, View.readCov_unit_zero (S := S1x10000) _ hz2]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]

/-! ## A middle block -/

/-- The pulls after a middle block: one step from what they held. -/
theorem grad_B (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : ¬cond0_1 i)
    (x0 : Vec F S128x10000 .f32) (x1 : Vec F S128x128 .f32) (x2 : Vec F S10000x128 .bf16) (xs0 : Vec F S10000x128 .f32) (xs1 : Vec F S1x10000 .f32) :
    sout0_B_0 c i arg2 harg2 arg3 harg3 arg4 harg4 arg5 harg5 arg6 harg6 arg7 harg7 arg8 harg8 hc0 hc1 x0 x1 x2 xs0 xs1 = k0_pay3 x0 x2 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]

/-- The label masses after a middle block: one step from what they held. -/
theorem count_B (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : ¬cond0_1 i)
    (x0 : Vec F S128x10000 .f32) (x1 : Vec F S128x128 .f32) (x2 : Vec F S10000x128 .bf16) (xs0 : Vec F S10000x128 .f32) (xs1 : Vec F S1x10000 .f32) :
    sout0_B_1 c i arg2 harg2 arg3 harg3 arg4 harg4 arg5 harg5 arg6 harg6 arg7 harg7 arg8 harg8 hc0 hc1 x0 x1 x2 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]

/-! ## Last block of a half -/

/-- The pulls after the last block of a half: one step from what they held. -/
theorem grad_C (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i)
    (x0 : Vec F S128x10000 .f32) (x1 : Vec F S128x128 .f32) (x2 : Vec F S10000x128 .bf16) (xs0 : Vec F S10000x128 .f32) (xs1 : Vec F S1x10000 .f32) :
    sout0_C_0 c i arg2 harg2 arg3 harg3 arg4 harg4 arg5 harg5 arg6 harg6 arg7 harg7 arg8 harg8 hc0 hc1 x0 x1 x2 xs0 xs1 = k0_pay3 x0 x2 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]

/-- The label masses after the last block of a half: one step from what they held. -/
theorem count_C (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i)
    (x0 : Vec F S128x10000 .f32) (x1 : Vec F S128x128 .f32) (x2 : Vec F S10000x128 .bf16) (xs0 : Vec F S10000x128 .f32) (xs1 : Vec F S1x10000 .f32) :
    sout0_C_1 c i arg2 harg2 arg3 harg3 arg4 harg4 arg5 harg5 arg6 harg6 arg7 harg7 arg8 harg8 hc0 hc1 x0 x1 x2 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]

/-- The first output after the last block of a half: the stepped pulls, under a leading unit axis. -/
theorem grad_out_C (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i)
    (x0 : Vec F S128x10000 .f32) (x1 : Vec F S128x128 .f32) (x2 : Vec F S10000x128 .bf16) (xs0 : Vec F S10000x128 .f32) (xs1 : Vec F S1x10000 .f32) :
    out0_C_3 c i arg2 harg2 arg3 harg3 arg4 harg4 arg5 harg5 arg6 harg6 arg7 harg7 arg8 harg8 hc0 hc1 x0 x1 x2 xs0 xs1 = k0_pay5 (k0_pay3 x0 x2 x1 xs0) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]
  rw [View.readCov_unit_zero (S := S10000x128) _ hz2]

/-- The second output after the last block of a half: the stepped label masses, under a leading unit axis. -/
theorem count_out_C (c : Dev nD) (i : grid0.Coords) (arg2 : Memref sig .tc .vmem S128x10000 .f32) (harg2 : arg2.IsWhole) (arg3 : Memref sig .tc .vmem S128x128 .f32) (harg3 : arg3.IsWhole) (arg4 : Memref sig .tc .vmem S10000x128 .bf16) (harg4 : arg4.IsWhole) (arg5 : Memref sig .tc .vmem S1x10000x128 .f32) (harg5 : arg5.IsWhole) (arg6 : Memref sig .tc .vmem S1x1x10000 .f32) (harg6 : arg6.IsWhole) (arg7 : Memref sig .tc .vmem S10000x128 .f32) (harg7 : arg7.IsWhole) (arg8 : Memref sig .tc .vmem S1x10000 .f32) (harg8 : arg8.IsWhole) (hc0 : ¬cond0_0 i) (hc1 : cond0_1 i)
    (x0 : Vec F S128x10000 .f32) (x1 : Vec F S128x128 .f32) (x2 : Vec F S10000x128 .bf16) (xs0 : Vec F S10000x128 .f32) (xs1 : Vec F S1x10000 .f32) :
    out0_C_4 c i arg2 harg2 arg3 harg3 arg4 harg4 arg5 harg5 arg6 harg6 arg7 harg7 arg8 harg8 hc0 hc1 x0 x1 x2 xs0 xs1 = k0_pay6 (k0_pay4 x0 xs1) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz3]
  simp only [View.readAt_eq_ld, harg2.read_unread, harg3.read_unread, harg4.read_unread, harg7.read_unread, harg8.read_unread, View.ld_unit_zero (S := S128x10000) hz2, View.ld_unit_zero (S := S10000x128) hz2, View.ld_unit_zero (S := S128x128) hz2, View.ld_unit_zero (S := S1x10000) hz2]
  rw [View.readCov_unit_zero (S := S1x10000) _ hz2]

end Cert.KernelIdeal.Pieces

end
-- ==== Proof.Blocks.lean ====
/-
  The blocks the body is given at grid point `t`, read at coordinates.

  The labels (16384 rows) and the features (16384 rows) are cut into 128 blocks of 128 consecutive rows, block `t` holding
  rows `128 t … 128 t + 127`: row `r` of block `t` is row `blockRow t r` of the array. The centres are given whole at
  every point, after a change of float format that, over the extended reals, changes nothing.
-/
import proofs.«159653_j22136261443658_2_alg».proof.Proof.Gen.KernelIdeal.Frame
import proofs.«159653_j22136261443658_2_alg».proof.Proof.Spec
import Idealize.ShloMosaic.Lib.Pipeline.Value
import Idealize.ShloMosaic.Lib.ValueIdx
import Idealize.ShloMosaic.Lib.Tactic

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The labels window at point `t` is block `(t, 0)`. -/
theorem labels_index : ∀ t : Fin cfg0.N, win0_0.index t 0 = t.val ∧ win0_0.index t 1 = 0 :=
  (by decide +kernel : ∀ t : Fin grid0.N, win0_0.index t 0 = t.val ∧ win0_0.index t 1 = 0)
/-- The features window at point `t` is block `(t, 0)`. -/
theorem preds_index : ∀ t : Fin cfg0.N, win0_1.index t 0 = t.val ∧ win0_1.index t 1 = 0 :=
  (by decide +kernel : ∀ t : Fin grid0.N, win0_1.index t 0 = t.val ∧ win0_1.index t 1 = 0)
/-- The centres window is block `(0, 0)` at every point. -/
theorem centres_index : ∀ t : Fin cfg0.N, win0_2.index t 0 = 0 ∧ win0_2.index t 1 = 0 :=
  (by decide +kernel : ∀ t : Fin grid0.N, win0_2.index t 0 = 0 ∧ win0_2.index t 1 = 0)

/-- Row `r` of the labels block at point `t` is row `blockRow t r` of the labels. -/
theorem labels_block (c : Dev nD) (t : Fin cfg0.N) (r : Fin 128) (k : Fin 10000) :
    (iblk m c 0 t : Vec F S128x10000 .f32) (ix2 r k) = m ((c : Thread nD τ).loc main_arg1) (ix2 (Cert.CentreStep.blockRow t.val r) k) := by
  have ht : t.val < 128 := lt_of_lt_of_eq t.isLt (show cfg0.N = 128 from N_0)
  unfold iblk
  rw [View.read_apply]
  show V m c main_arg1 (((cfg0.win 0).blk t).view.emb (ix2 r k)) = _
  rw [V_main_arg1]
  refine congrArg (m ((c : Thread nD τ).loc main_arg1)) (funext fun a => Fin.ext ?_)
  match a with
  | ⟨0, _⟩ =>
    show win0_0.index t 0 * 128 + 1 * r.val = (Cert.CentreStep.blockRow t.val r).val
    rw [(labels_index t).1, Cert.CentreStep.blockRow_val _ ht]; omega
  | ⟨1, _⟩ =>
    show win0_0.index t 1 * 10000 + 1 * k.val = k.val
    rw [(labels_index t).2]; omega

/-- Row `r` of the features block at point `t` is row `blockRow t r` of the features. -/
theorem preds_block (c : Dev nD) (t : Fin cfg0.N) (r : Fin 128) (j : Fin 128) :
    (iblk m c 1 t : Vec F S128x128 .f32) (ix2 r j) = m ((c : Thread nD τ).loc main_arg0) (ix2 (Cert.CentreStep.blockRow t.val r) j) := by
  have ht : t.val < 128 := lt_of_lt_of_eq t.isLt (show cfg0.N = 128 from N_0)
  unfold iblk
  rw [View.read_apply]
  show V m c main_arg0 (((cfg0.win 1).blk t).view.emb (ix2 r j)) = _
  rw [V_main_arg0]
  refine congrArg (m ((c : Thread nD τ).loc main_arg0)) (funext fun a => Fin.ext ?_)
  match a with
  | ⟨0, _⟩ =>
    show win0_1.index t 0 * 128 + 1 * r.val = (Cert.CentreStep.blockRow t.val r).val
    rw [(preds_index t).1, Cert.CentreStep.blockRow_val _ ht]; omega
  | ⟨1, _⟩ =>
    show win0_1.index t 1 * 128 + 1 * j.val = j.val
    rw [(preds_index t).2]; omega

/-- The array the third window stages is the centres after the one change of format made before the region. -/
theorem V_centres (c : Dev nD) :
    V m c main_v0 = (truncf .bf16 (m ((c : Thread nD τ).loc main_arg2)) bitsLt_bf16_f32 : (⟨S10000x128, .bf16⟩ : BufTy).Contents (Elt F)) := by
  show StableHlo.after hostOps0 (fun b => m (c, b)) (Proc.devRef .tc main_v0) = _
  after_results

/-- Over the extended reals the centres block at every point is the centres. -/
theorem centres_block (m : (ℓ : Loc nD τ sig) → Buf (Elt Ideal) ℓ) (c : Dev nD) (t : Fin cfg0.N) (k : Fin 10000) (j : Fin 128) :
    (iblk (F := Ideal) m c 2 t : Vec Ideal S10000x128 .bf16) (ix2 k j) = m ((c : Thread nD τ).loc main_arg2) (ix2 k j) := by
  unfold iblk
  rw [View.read_apply]
  show V m c main_v0 (((cfg0.win 2).blk t).view.emb (ix2 k j)) = _
  rw [V_centres]
  show m ((c : Thread nD τ).loc main_arg2) (((cfg0.win 2).blk t).view.emb (ix2 k j)) = _
  refine congrArg (m ((c : Thread nD τ).loc main_arg2)) (funext fun a => Fin.ext ?_)
  match a with
  | ⟨0, _⟩ =>
    show win0_2.index t 0 * 10000 + 1 * k.val = k.val
    rw [(centres_index t).1]; omega
  | ⟨1, _⟩ =>
    show win0_2.index t 1 * 128 + 1 * j.val = j.val
    rw [(centres_index t).2]; omega

end Cert.KernelIdeal.Blocks

end
-- ==== Proof.Cover.lean ====
/-
  Where the blocks of the two output windows sit in their arrays.

  Output window 3 is a [1,10000,128] block of a [2,10000,128] array and output window 4 a [1,1,10000] block of a
  [2,1,10000] array. At grid point `t` (of 128) both have block index `(t / 64, 0, 0)`, and both are written back at
  the points with `t % 64 = 63`. So element `(0, k, d)` of point `t`'s block is element `(t / 64, k, d)` of the
  array, and every element `(p, k, d)` of the array lies in the block of the flushing point `64 p + 63`.
-/
import proofs.«159653_j22136261443658_2_alg».proof.Proof.Gen.KernelIdeal.Frame
import Idealize.ShloMosaic.Lib.Pipeline.Value
import Idealize.ShloMosaic.Lib.ValueIdx

noncomputable section

namespace Cert.KernelIdeal.Cover

open Cert.KernelIdeal Cert.KernelIdeal.Gen Idealize.ShloMosaic Idealize.ShloMosaic.ValueIdx

/-- Window 3's block index at point `t` is `(t / 64, 0, 0)`. -/
theorem idx3 : ∀ t : Fin cfg0.N, win0_3.index t (0 : Fin 3) = t.val / 64 ∧ win0_3.index t (1 : Fin 3) = 0
    ∧ win0_3.index t (2 : Fin 3) = 0 :=
  (by decide +kernel : ∀ t : Fin grid0.N, win0_3.index t (0 : Fin 3) = t.val / 64 ∧ win0_3.index t (1 : Fin 3) = 0
    ∧ win0_3.index t (2 : Fin 3) = 0)

/-- Window 4's block index at point `t` is `(t / 64, 0, 0)`. -/
theorem idx4 : ∀ t : Fin cfg0.N, win0_4.index t (0 : Fin 3) = t.val / 64 ∧ win0_4.index t (1 : Fin 3) = 0
    ∧ win0_4.index t (2 : Fin 3) = 0 :=
  (by decide +kernel : ∀ t : Fin grid0.N, win0_4.index t (0 : Fin 3) = t.val / 64 ∧ win0_4.index t (1 : Fin 3) = 0
    ∧ win0_4.index t (2 : Fin 3) = 0)

/-- The half a point belongs to. -/
theorem half_lt (t : Fin cfg0.N) : t.val / 64 < 2 := by
  have := t.isLt; have : cfg0.N = 128 := N_0; omega

/-- Element `(0, k, d)` of point `t`'s block of window 3 is element `(t / 64, k, d)` of the array. -/
theorem emb3 (t : Fin cfg0.N) (k : Fin 10000) (d : Fin 128) :
    ((cfg0.win 3).blk t).view.emb (ix3 (0 : Fin 1) k d) = ix3 (⟨t.val / 64, half_lt t⟩ : Fin 2) k d := by
  obtain ⟨e0, e1, e2⟩ := idx3 t
  funext a; apply Fin.ext
  match a with
  | ⟨0, _⟩ => show win0_3.index t (0 : Fin 3) * 1 + 1 * 0 = t.val / 64; omega
  | ⟨1, _⟩ => show win0_3.index t (1 : Fin 3) * 10000 + 1 * k.val = k.val; omega
  | ⟨2, _⟩ => show win0_3.index t (2 : Fin 3) * 128 + 1 * d.val = d.val; omega

/-- Element `(0, 0, k)` of point `t`'s block of window 4 is element `(t / 64, 0, k)` of the array. -/
theorem emb4 (t : Fin cfg0.N) (k : Fin 10000) :
    ((cfg0.win 4).blk t).view.emb (ix3 (0 : Fin 1) (0 : Fin 1) k) = ix3 (⟨t.val / 64, half_lt t⟩ : Fin 2) (0 : Fin 1) k := by
  obtain ⟨e0, e1, e2⟩ := idx4 t
  funext a; apply Fin.ext
  match a with
  | ⟨0, _⟩ => show win0_4.index t (0 : Fin 3) * 1 + 1 * 0 = t.val / 64; omega
  | ⟨1, _⟩ => show win0_4.index t (1 : Fin 3) * 1 + 1 * 0 = 0; omega
  | ⟨2, _⟩ => show win0_4.index t (2 : Fin 3) * 10000 + 1 * k.val = k.val; omega

/-- The last point of half `p`. -/
def lastOf (p : ℕ) (hp : p < 2) : Fin cfg0.N := ⟨64 * p + 63, by have : cfg0.N = 128 := N_0; omega⟩

/-- Every element of window 3's array lies in the block of a point at which the window is written back. -/
theorem cover3 (c : Dev nD) (i : ((cfg0.win 3).arr.view.loc ((c : Dev nD).tc : Thread nD τ)).2.ty.Idx) :
    ∃ t : Fin cfg0.N, (cfg0.win 3).flush t = true ∧ i ∈ ((cfg0.win 3).blk t).view.set := by
  have h0 : (i 0 : Nat) < 2 := (i 0).isLt
  have h1 : (i 1 : Nat) < 10000 := (i 1).isLt
  have h2 : (i 2 : Nat) < 128 := (i 2).isLt
  refine ⟨lastOf (i 0 : Nat) h0, (flush0_3 _).mpr (by show (64 * (i 0 : Nat) + 63) % 64 = 63; omega), ?_⟩
  obtain ⟨e0, e1, e2⟩ := idx3 (lastOf (i 0 : Nat) h0)
  have e0' : win0_3.index (lastOf (i 0 : Nat) h0) (0 : Fin 3) = (i 0 : Nat) := by
    rw [e0]; show (64 * (i 0 : Nat) + 63) / 64 = (i 0 : Nat); omega
  show i ∈ ((View.whole main_v1_0).slice (win0_3.rect (lastOf (i 0 : Nat) h0))).set
  rw [View.set_slice_whole, Rect.mem_set_unit]
  intro a
  match a with
  | ⟨0, _⟩ =>
    show win0_3.index (lastOf (i 0 : Nat) h0) (0 : Fin 3) * 1 ≤ (i 0 : Nat)
      ∧ (i 0 : Nat) < win0_3.index (lastOf (i 0 : Nat) h0) (0 : Fin 3) * 1 + 1
    omega
  | ⟨1, _⟩ =>
    show win0_3.index (lastOf (i 0 : Nat) h0) (1 : Fin 3) * 10000 ≤ (i 1 : Nat)
      ∧ (i 1 : Nat) < win0_3.index (lastOf (i 0 : Nat) h0) (1 : Fin 3) * 10000 + 10000
    omega
  | ⟨2, _⟩ =>
    show win0_3.index (lastOf (i 0 : Nat) h0) (2 : Fin 3) * 128 ≤ (i 2 : Nat)
      ∧ (i 2 : Nat) < win0_3.index (lastOf (i 0 : Nat) h0) (2 : Fin 3) * 128 + 128
    omega

/-- Every element of window 4's array lies in the block of a point at which the window is written back. -/
theorem cover4 (c : Dev nD) (i : ((cfg0.win 4).arr.view.loc ((c : Dev nD).tc : Thread nD τ)).2.ty.Idx) :
    ∃ t : Fin cfg0.N, (cfg0.win 4).flush t = true ∧ i ∈ ((cfg0.win 4).blk t).view.set := by
  have h0 : (i 0 : Nat) < 2 := (i 0).isLt
  have h1 : (i 1 : Nat) < 1 := (i 1).isLt
  have h2 : (i 2 : Nat) < 10000 := (i 2).isLt
  refine ⟨lastOf (i 0 : Nat) h0, (flush0_4 _).mpr (by show (64 * (i 0 : Nat) + 63) % 64 = 63; omega), ?_⟩
  obtain ⟨e0, e1, e2⟩ := idx4 (lastOf (i 0 : Nat) h0)
  have e0' : win0_4.index (lastOf (i 0 : Nat) h0) (0 : Fin 3) = (i 0 : Nat) := by
    rw [e0]; show (64 * (i 0 : Nat) + 63) / 64 = (i 0 : Nat); omega
  show i ∈ ((View.whole main_v1_1).slice (win0_4.rect (lastOf (i 0 : Nat) h0))).set
  rw [View.set_slice_whole, Rect.mem_set_unit]
  intro a
  match a with
  | ⟨0, _⟩ =>
    show win0_4.index (lastOf (i 0 : Nat) h0) (0 : Fin 3) * 1 ≤ (i 0 : Nat)
      ∧ (i 0 : Nat) < win0_4.index (lastOf (i 0 : Nat) h0) (0 : Fin 3) * 1 + 1
    omega
  | ⟨1, _⟩ =>
    show win0_4.index (lastOf (i 0 : Nat) h0) (1 : Fin 3) * 1 ≤ (i 1 : Nat)
      ∧ (i 1 : Nat) < win0_4.index (lastOf (i 0 : Nat) h0) (1 : Fin 3) * 1 + 1
    omega
  | ⟨2, _⟩ =>
    show win0_4.index (lastOf (i 0 : Nat) h0) (2 : Fin 3) * 10000 ≤ (i 2 : Nat)
      ∧ (i 2 : Nat) < win0_4.index (lastOf (i 0 : Nat) h0) (2 : Fin 3) * 10000 + 10000
    omega

end Cert.KernelIdeal.Cover

end
-- ==== Proof.Accum.lean ====
/-
  The kernel's two result arrays, read as the specification's running totals.

  The grid's 128 points fall into two halves of 64; point `t` loads block `t` of the labels (rows 128t … 128t+127),
  the same rows of the features and the whole centre table. Two accumulators are carried from point to point: the
  pull accumulator (one entry per class and feature) and the label-mass accumulator (one entry per class). The first
  point of a half zeroes them before adding its block's contribution; every later point adds its block's contribution
  to what the point before left; the last point of a half copies both into the half's block of the two result arrays.
  So after point `n` each accumulator holds `carried` of the blocks' contributions at `n` (induction on the point,
  never an enumeration of the grid), and after the region the result arrays hold, for each half, the running totals
  after that half's last block.
-/
import proofs.«159653_j22136261443658_2_alg».proof.Proof.Gen.KernelIdeal.Frame
import proofs.«159653_j22136261443658_2_alg».proof.Proof.Spec
import proofs.«159653_j22136261443658_2_alg».proof.Proof.Payload
import proofs.«159653_j22136261443658_2_alg».proof.Proof.Pieces
import proofs.«159653_j22136261443658_2_alg».proof.Proof.Blocks
import proofs.«159653_j22136261443658_2_alg».proof.Proof.Cover
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.CentreStep

variable (m : (ℓ : Loc nD τ sig) → Buf (Elt Ideal) ℓ)

/-- The three argument arrays as functions of their coordinates. -/
def labels (c : Dev nD) : Fin 16384 → Fin 10000 → EReal := fun n k => m ((c : Thread nD τ).loc main_arg1) (ix2 n k)
def preds (c : Dev nD) : Fin 16384 → Fin 128 → EReal := fun n j => m ((c : Thread nD τ).loc main_arg0) (ix2 n j)
def centres (c : Dev nD) : Fin 10000 → Fin 128 → EReal := fun k j => m ((c : Thread nD τ).loc main_arg2) (ix2 k j)

/-- One body's update of the pull accumulator, when its three loaded blocks are block `t` of the labels, block `t` of
    the features and the whole centre table: the accumulator plus block `t`'s pulls. -/
theorem grad_step (x0 : Vec Ideal S128x10000 .f32) (x1 : Vec Ideal S128x128 .f32) (x2 : Vec Ideal S10000x128 .bf16)
    (acc : Vec Ideal S10000x128 .f32) (L : Fin 16384 → Fin 10000 → EReal) (P : Fin 16384 → Fin 128 → EReal)
    (Z : Fin 10000 → Fin 128 → EReal) (t : ℕ)
    (h0 : ∀ r k, x0 (ix2 r k) = L (blockRow t r) k) (h1 : ∀ r j, x1 (ix2 r j) = P (blockRow t r) j)
    (h2 : ∀ k j, x2 (ix2 k j) = Z k j) (k : Fin 10000) (d : Fin 128) :
    k0_pay3 x0 x2 x1 acc (ix2 k d) = acc (ix2 k d) + blockGrad L P Z t k d := by
  rw [Payload.grad_step_apply]
  unfold blockGrad pull
  refine congrArg (acc (ix2 k d) + ·) (Finset.sum_congr rfl fun r _ => ?_)
  rw [h0 r k, h1 r d]
  refine congrArg (fun s => L (blockRow t r) k * (s - P (blockRow t r) d)) (Finset.sum_congr rfl fun k' _ => ?_)
  rw [h0 r k', h2 k' d]

/-- One body's update of the label-mass accumulator: the accumulator plus block `t`'s column sums. -/
theorem count_step (x0 : Vec Ideal S128x10000 .f32) (acc : Vec Ideal S1x10000 .f32) (L : Fin 16384 → Fin 10000 → EReal) (t : ℕ)
    (h0 : ∀ r k, x0 (ix2 r k) = L (blockRow t r) k) (k : Fin 10000) :
    k0_pay4 x0 acc (ix2 (0 : Fin 1) k) = acc (ix2 (0 : Fin 1) k) + blockCount L t k := by
  rw [Payload.count_step_apply]
  unfold blockCount
  exact congrArg (acc (ix2 (0 : Fin 1) k) + ·) (Finset.sum_congr rfl fun r _ => h0 r k)

/-- At the first block of a half the pull accumulator, zeroed and then updated, holds that block's pulls. -/
theorem grad_first (c : Dev nD) (t : Fin cfg0.N) (h0 : t.val % 64 = 0) (h1 : ¬t.val % 64 = 63) (k : Fin 10000) (d : Fin 128) :
    (outsAt0 m c t.val t.isLt).2.2.1 (ix2 k d) = blockGrad (labels m c) (preds m c) (centres m c) t.val k d := by
  rw [outsAt0_A m c t h0 h1]
  dsimp only
  rw [Pieces.grad_A]
  refine (grad_step (iblk m c 0 t) (iblk m c 1 t) (iblk m c 2 t) (k0_pay1 (F := Ideal)) (labels m c) (preds m c) (centres m c) t.val
    (Blocks.labels_block m c t) (Blocks.preds_block m c t) (Blocks.centres_block m c t) k d).trans ?_
  rw [Payload.zero_grad_apply, zero_add]

/-- At any later block of a half it holds what the block before left, plus this block's pulls. -/
theorem grad_next (c : Dev nD) (t : Fin cfg0.N) (h0 : ¬t.val % 64 = 0) (k : Fin 10000) (d : Fin 128) :
    (outsAt0 m c t.val t.isLt).2.2.1 (ix2 k d)
      = (outsAt0 m c (t.val - 1) (Nat.lt_of_le_of_lt (Nat.sub_le _ _) t.isLt)).2.2.1 (ix2 k d)
        + blockGrad (labels m c) (preds m c) (centres m c) t.val k d := by
  by_cases h1 : t.val % 64 = 63
  · rw [outsAt0_C m c t h0 h1]
    dsimp only
    rw [Pieces.grad_C]
    exact grad_step (iblk m c 0 t) (iblk m c 1 t) (iblk m c 2 t) _ (labels m c) (preds m c) (centres m c) t.val
      (Blocks.labels_block m c t) (Blocks.preds_block m c t) (Blocks.centres_block m c t) k d
  · rw [outsAt0_B m c t h0 h1]
    dsimp only
    rw [Pieces.grad_B]
    exact grad_step (iblk m c 0 t) (iblk m c 1 t) (iblk m c 2 t) _ (labels m c) (preds m c) (centres m c) t.val
      (Blocks.labels_block m c t) (Blocks.preds_block m c t) (Blocks.centres_block m c t) k d

/-- The pull accumulator after grid point `n` is the running total of the blocks' pulls. -/
theorem grad_carried (c : Dev nD) (k : Fin 10000) (d : Fin 128) : ∀ (n : ℕ) (h : n < cfg0.N),
    (outsAt0 m c n h).2.2.1 (ix2 k d) = carried (fun t => blockGrad (labels m c) (preds m c) (centres m c) t k d) n
  | 0, h => grad_first m c ⟨0, h⟩ rfl (by show ¬(0 % 64 = 63); decide) k d
  | n + 1, h => by
    by_cases h0 : (n + 1) % 64 = 0
    · have h1 : ¬(n + 1) % 64 = 63 := by omega
      rw [show carried (fun t => blockGrad (labels m c) (preds m c) (centres m c) t k d) (n + 1)
        = blockGrad (labels m c) (preds m c) (centres m c) (n + 1) k d from if_pos h0]
      exact grad_first m c ⟨n + 1, h⟩ h0 h1 k d
    · rw [show carried (fun t => blockGrad (labels m c) (preds m c) (centres m c) t k d) (n + 1)
        = carried (fun t => blockGrad (labels m c) (preds m c) (centres m c) t k d) n
          + blockGrad (labels m c) (preds m c) (centres m c) (n + 1) k d from if_neg h0]
      rw [← grad_carried c k d n (Nat.lt_of_succ_lt h)]
      exact grad_next m c ⟨n + 1, h⟩ h0 k d

/-- The label-mass accumulator at the first block of a half: that block's column sums. -/
theorem count_first (c : Dev nD) (t : Fin cfg0.N) (h0 : t.val % 64 = 0) (h1 : ¬t.val % 64 = 63) (k : Fin 10000) :
    (outsAt0 m c t.val t.isLt).2.2.2 (ix2 (0 : Fin 1) k) = blockCount (labels m c) t.val k := by
  rw [outsAt0_A m c t h0 h1]
  dsimp only
  rw [Pieces.count_A]
  refine (count_step (iblk m c 0 t) (k0_pay2 (F := Ideal)) (labels m c) t.val (Blocks.labels_block m c t) k).trans ?_
  rw [Payload.zero_count_apply, zero_add]

/-- At any later block of a half: what the block before left, plus this block's column sums. -/
theorem count_next (c : Dev nD) (t : Fin cfg0.N) (h0 : ¬t.val % 64 = 0) (k : Fin 10000) :
    (outsAt0 m c t.val t.isLt).2.2.2 (ix2 (0 : Fin 1) k)
      = (outsAt0 m c (t.val - 1) (Nat.lt_of_le_of_lt (Nat.sub_le _ _) t.isLt)).2.2.2 (ix2 (0 : Fin 1) k)
        + blockCount (labels m c) t.val k := by
  by_cases h1 : t.val % 64 = 63
  · rw [outsAt0_C m c t h0 h1]
    dsimp only
    rw [Pieces.count_C]
    exact count_step (iblk m c 0 t) _ (labels m c) t.val (Blocks.labels_block m c t) k
  · rw [outsAt0_B m c t h0 h1]
    dsimp only
    rw [Pieces.count_B]
    exact count_step (iblk m c 0 t) _ (labels m c) t.val (Blocks.labels_block m c t) k

/-- The label-mass accumulator after grid point `n` is the running total of the blocks' column sums. -/
theorem count_carried (c : Dev nD) (k : Fin 10000) : ∀ (n : ℕ) (h : n < cfg0.N),
    (outsAt0 m c n h).2.2.2 (ix2 (0 : Fin 1) k) = carried (fun t => blockCount (labels m c) t k) n
  | 0, h => count_first m c ⟨0, h⟩ rfl (by show ¬(0 % 64 = 63); decide) k
  | n + 1, h => by
    by_cases h0 : (n + 1) % 64 = 0
    · have h1 : ¬(n + 1) % 64 = 63 := by omega
      rw [show carried (fun t => blockCount (labels m c) t k) (n + 1) = blockCount (labels m c) (n + 1) k from if_pos h0]
      exact count_first m c ⟨n + 1, h⟩ h0 h1 k
    · rw [show carried (fun t => blockCount (labels m c) t k) (n + 1)
        = carried (fun t => blockCount (labels m c) t k) n + blockCount (labels m c) (n + 1) k from if_neg h0]
      rw [← count_carried c k n (Nat.lt_of_succ_lt h)]
      exact count_next m c ⟨n + 1, h⟩ h0 k

/-- At the last block of a half the body copies the pull accumulator into the first output's staging buffer, -/
theorem grad_copied (c : Dev nD) (t : Fin cfg0.N) (h0 : ¬t.val % 64 = 0) (h1 : t.val % 64 = 63) (k : Fin 10000) (d : Fin 128) :
    (outsAt0 m c t.val t.isLt).1 (ix3 (0 : Fin 1) k d) = (outsAt0 m c t.val t.isLt).2.2.1 (ix2 k d) := by
  rw [outsAt0_C m c t h0 h1]
  dsimp only
  rw [Pieces.grad_out_C, Pieces.grad_C]
  exact Payload.grad_out_apply _ k d

/-- and the label-mass accumulator into the second's. -/
theorem count_copied (c : Dev nD) (t : Fin cfg0.N) (h0 : ¬t.val % 64 = 0) (h1 : t.val % 64 = 63) (k : Fin 10000) :
    (outsAt0 m c t.val t.isLt).2.1 (ix3 (0 : Fin 1) (0 : Fin 1) k) = (outsAt0 m c t.val t.isLt).2.2.2 (ix2 (0 : Fin 1) k) := by
  rw [outsAt0_C m c t h0 h1]
  dsimp only
  rw [Pieces.count_out_C, Pieces.count_C]
  exact Payload.count_out_apply _ k

/-! ## The two result arrays of the region -/

/-- Half `p`'s total pull on class `k` at feature `d`, as the running total after the half's last block. -/
def gradHalves (c : Dev nD) : S2x10000x128.Idx → EReal := fun j =>
  carried (fun t => blockGrad (labels m c) (preds m c) (centres m c) t (j 1) (j 2)) (64 * (j 0).val + 63)

/-- Half `p`'s label mass of class `k`. -/
def countHalves (c : Dev nD) : S2x1x10000.Idx → EReal := fun j =>
  carried (fun t => blockCount (labels m c) t (j 2)) (64 * (j 0).val + 63)

/-- What a half's last point writes back into the first result array is its block of `gradHalves`. -/
theorem grad_flushed (c : Dev nD) (t : Fin cfg0.N) (hf : (cfg0.win 3).flush t = true) :
    (dats m 0 c).flushed 3 t = ((cfg0.win 3).blk t).view.read (Elt Ideal) (gradHalves m c) := by
  have hN : cfg0.N = 128 := N_0
  have h1 : t.val % 64 = 63 := (flush0_3 t).mp hf
  have h0 : ¬t.val % 64 = 0 := by omega
  show (cfg0.win 3).cut (grid0.coords t) ((dats m 0 c).after 3 t) = _
  rw [after0_3]
  funext y
  obtain ⟨k, d, rfl⟩ : ∃ (k : Fin 10000) (d : Fin 128), y = ix3 (0 : Fin 1) k d :=
    ⟨y 1, y 2, (eq_ix3 y).trans (congrArg (fun a : Fin 1 => ix3 a (y 1) (y 2)) (@Subsingleton.elim (Fin 1) _ (y 0) 0))⟩
  rw [View.read_apply, Cover.emb3]
  show (outsAt0 m c t.val t.isLt).1 (ix3 (0 : Fin 1) k d) = carried (fun t => blockGrad (labels m c) (preds m c) (centres m c) t k d) (64 * (t.val / 64) + 63)
  rw [grad_copied m c t h0 h1 k d, grad_carried m c k d t.val t.isLt]
  exact congrArg _ (by omega)

theorem count_flushed (c : Dev nD) (t : Fin cfg0.N) (hf : (cfg0.win 4).flush t = true) :
    (dats m 0 c).flushed 4 t = ((cfg0.win 4).blk t).view.read (Elt Ideal) (countHalves m c) := by
  have hN : cfg0.N = 128 := N_0
  have h1 : t.val % 64 = 63 := (flush0_4 t).mp hf
  have h0 : ¬t.val % 64 = 0 := by omega
  show (cfg0.win 4).cut (grid0.coords t) ((dats m 0 c).after 4 t) = _
  rw [after0_4]
  funext y
  obtain ⟨k, rfl⟩ : ∃ (k : Fin 10000), y = ix3 (0 : Fin 1) (0 : Fin 1) k :=
    ⟨y 2, (eq_ix3 y).trans (congrArg₂ (fun a b : Fin 1 => ix3 a b (y 2)) (@Subsingleton.elim (Fin 1) _ (y 0) 0) (@Subsingleton.elim (Fin 1) _ (y 1) 0))⟩
  rw [View.read_apply, Cover.emb4]
  show (outsAt0 m c t.val t.isLt).2.1 (ix3 (0 : Fin 1) (0 : Fin 1) k) = carried (fun t => blockCount (labels m c) t k) (64 * (t.val / 64) + 63)
  rw [count_copied m c t h0 h1 k, count_carried m c k t.val t.isLt]
  exact congrArg _ (by omega)

/-- After the region the first result array holds the two halves' pull totals, -/
theorem grad_final (c : Dev nD) : (dats m 0 c).arrAt 3 cfg0.N = gradHalves m c :=
  (dats m 0 c).arrAt_eq_of_cover 3 (gradHalves m c) (grad_flushed m c) (Cover.cover3 c)

/-- and the second the two halves' label masses. -/
theorem count_final (c : Dev nD) : (dats m 0 c).arrAt 4 cfg0.N = countHalves m c :=
  (dats m 0 c).arrAt_eq_of_cover 4 (countHalves m c) (count_flushed m c) (Cover.cover4 c)

end Cert.KernelIdeal.Accum

end
-- ==== Proof.Tail.lean ====
/-
  The fourteen host operations after the region as one function of the two output arrays and the centres, the run
  through them, and the function read at a coordinate over the extended reals: the centre minus one half of the
  quotient of the two summed halves.
-/
import proofs.«159653_j22136261443658_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Tail

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable {F : FTy → Type} [FloatOps F]

/-- The host operations after the region, composed: the two halves of each output summed from zero, the counts
    transposed and increased by one, the quotient halved and taken from the centres. -/
def after (A3 : (⟨S2x10000x128, .f32⟩ : BufTy).Contents (Elt F)) (A4 : (⟨S2x1x10000, .f32⟩ : BufTy).Contents (Elt F))
    (Zc : (⟨S10000x128, .f32⟩ : BufTy).Contents (Elt F)) : (⟨S10000x128, .f32⟩ : BufTy).Contents (Elt F) :=
  subf Zc (mulf (broadcastInDim S10000x128 ![] bcast_S_S10000x128 (constant S_ .f32 0x3F000000#32))
    (Host.divf (Host.reduceAdd A3 (constant S_ .f32 0x00000000#32) reducesTo_S2x10000x128_S10000x128_d0 h_S_)
      (broadcastInDim S10000x128 ![0, 1] bcast_S10000x1_S10000x128_0_1
        (addf (transpose S10000x1 [1, 0] (Host.reduceAdd A4 (constant S_ .f32 0x00000000#32) reducesTo_S2x1x10000_S1x10000_d0 h_S_) transposes_S1x10000_S10000x1_1_0)
          (broadcastInDim S10000x1 ![] bcast_S_S10000x1 (constant S_ .f32 0x3F800000#32))))))

variable (m : (ℓ : Loc nD τ sig) → Buf (Elt F) ℓ) (ρ : Dev nD → PrngReg)

/-- What the operations after the region leave in the result buffer: the composed function of the two output arrays as
    the region leaves them and of the centres as launched. -/
theorem tail_eq (c : Dev nD) :
    Pipeline.afterTail₀ cfgs (dats m) 0 (V0 m) [hostOps1] c main_v11
      = after ((dats m 0 c).arrAt 3 cfg0.N) ((dats m 0 c).arrAt 4 cfg0.N) (m ((c : Thread nD τ).loc main_arg2)) := by
  unfold Pipeline.afterTail₀
  show StableHlo.after hostOps1 _ (Proc.devRef .tc main_v11) = _
  after_results
  have e3 : Pipeline.withArrays (cfgs 0).spec c (V0 m c) (fun w => (dats m 0 c).arrAt w (cfgs 0).N) (Proc.devRef .tc main_v1_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v1_1)
      = (dats m 0 c).arrAt 4 cfg0.N := Pipeline.withArrays_arr spec0 launch0.win.arr_inj c _ _ 4
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e3, e4, e2]
  rfl

/-- Every fair execution of the program ends with the result buffer at the composed function of the two output arrays
    and the centres, and with the three arguments as launched. -/
theorem run : θ_run defs (onTc (τ := τ) (main (F := F))) ⟨m, fun _ => 0, ρ⟩ (fun r => ∀ c : Dev nD,
      r.2.mem ((c : Thread nD τ).loc main_v11)
        = after ((dats m 0 c).arrAt 3 cfg0.N) ((dats m 0 c).arrAt 4 cfg0.N) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).2 main_v11 (Pipeline.mem_restRefs_of main_v11 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

/-- A scalar constant spread over the centres' shape is that constant everywhere. -/
theorem spread_apply (b : BitVec 32) (i : S10000x128.Idx) :
    broadcastInDim S10000x128 ![] bcast_S_S10000x128 (constant (F := Ideal) S_ .f32 b) i = Ideal.ofBits .f32 b :=
  broadcastInDim_apply _ bcast_S_S10000x128 (constant (F := Ideal) S_ .f32 b) i ix0 (fun a => a.elim0)

/-- A scalar constant spread over a column is that constant everywhere. -/
theorem spreadCol_apply (b : BitVec 32) (i : S10000x1.Idx) :
    broadcastInDim S10000x1 ![] bcast_S_S10000x1 (constant (F := Ideal) S_ .f32 b) i = Ideal.ofBits .f32 b :=
  broadcastInDim_apply _ bcast_S_S10000x1 (constant (F := Ideal) S_ .f32 b) i ix0 (fun a => a.elim0)

/-- A column spread along the features reads the column at the class. -/
theorem alongFeatures_apply (y : (⟨S10000x1, .f32⟩ : BufTy).Contents (Elt Ideal)) (c : Fin 10000) (d : Fin 128) :
    broadcastInDim S10000x128 ![0, 1] bcast_S10000x1_S10000x128_0_1 y (ix2 c d) = y (ix2 c (0 : Fin 1)) :=
  broadcastInDim_apply _ bcast_S10000x1_S10000x128_0_1 y (ix2 c d) (ix2 c (0 : Fin 1)) (fun a => match a with
    | ⟨0, _⟩ => by show c.val = if (10000 : Nat) = 1 then 0 else c.val; rw [if_neg (by decide)]
    | ⟨1, _⟩ => by show 0 = if (1 : Nat) = 1 then 0 else d.val; rw [if_pos rfl])

/-- The transposed row read at a class is the row at that class. -/
theorem transposed_apply (y : (⟨S1x10000, .f32⟩ : BufTy).Contents (Elt Ideal)) (c : Fin 10000) :
    transpose S10000x1 [1, 0] y transposes_S1x10000_S10000x1_1_0 (ix2 c (0 : Fin 1)) = y (ix2 (0 : Fin 1) c) :=
  transpose_apply [1, 0] y transposes_S1x10000_S10000x1_1_0 (ix2 c (0 : Fin 1)) (ix2 (0 : Fin 1) c) (fun b => match b with
    | ⟨0, _⟩ => rfl
    | ⟨1, _⟩ => rfl)

/-- The two halves of the gradient output summed from the initial value. -/
theorem halves3_apply (A3 : (⟨S2x10000x128, .f32⟩ : BufTy).Contents (Elt Ideal)) (b : BitVec 32) (c : Fin 10000) (d : Fin 128) :
    Host.reduceAdd (F := Ideal) A3 (constant S_ .f32 b) reducesTo_S2x10000x128_S10000x128_d0 h_S_ (ix2 c d)
      = Ideal.ofBits .f32 b + ∑ p : Fin 2, A3 (ix3 p c d) := by
  simp only [Host.reduceAdd, Ideal.hostReduceAdd_def]
  rw [Ideal.hostReduceAdd_single reducesTo_S2x10000x128_S10000x128_d0 (by decide)]
  refine congrArg (_ + ·) (Finset.sum_congr rfl fun p _ => ?_)
  exact congrArg A3 (funext fun a => Fin.ext (by match a with | ⟨0, _⟩ => rfl | ⟨1, _⟩ => rfl | ⟨2, _⟩ => rfl))

/-- The two halves of the count output summed from the initial value. -/
theorem halves4_apply (A4 : (⟨S2x1x10000, .f32⟩ : BufTy).Contents (Elt Ideal)) (b : BitVec 32) (c : Fin 10000) :
    Host.reduceAdd (F := Ideal) A4 (constant S_ .f32 b) reducesTo_S2x1x10000_S1x10000_d0 h_S_ (ix2 (0 : Fin 1) c)
      = Ideal.ofBits .f32 b + ∑ p : Fin 2, A4 (ix3 p (0 : Fin 1) c) := by
  simp only [Host.reduceAdd, Ideal.hostReduceAdd_def]
  rw [Ideal.hostReduceAdd_single reducesTo_S2x1x10000_S1x10000_d0 (by decide)]
  refine congrArg (_ + ·) (Finset.sum_congr rfl fun p _ => ?_)
  exact congrArg A4 (funext fun a => Fin.ext (by match a with | ⟨0, _⟩ => rfl | ⟨1, _⟩ => rfl | ⟨2, _⟩ => rfl))

/-- The host's quotient of two arrays over the extended reals, at a coordinate. -/
theorem hostDivf_apply {s : Shape} {φ : FTy} (a b : FVec Ideal s φ) (i : s.Idx) : Host.divf a b i = Ideal.div (a i) (b i) := rfl

/-- The composed function at class `c` and feature `d`: the centre less one half of the summed gradient halves over
    the summed count halves plus one. -/
theorem after_apply (A3 : (⟨S2x10000x128, .f32⟩ : BufTy).Contents (Elt Ideal)) (A4 : (⟨S2x1x10000, .f32⟩ : BufTy).Contents (Elt Ideal))
    (Zc : (⟨S10000x128, .f32⟩ : BufTy).Contents (Elt Ideal)) (c : Fin 10000) (d : Fin 128) :
    after (F := Ideal) A3 A4 Zc (ix2 c d)
      = Zc (ix2 c d) - Ideal.ofBits .f32 0x3F000000#32
          * Ideal.div (Ideal.ofBits .f32 0x00000000#32 + ∑ p : Fin 2, A3 (ix3 p c d))
              ((Ideal.ofBits .f32 0x00000000#32 + ∑ p : Fin 2, A4 (ix3 p (0 : Fin 1) c)) + Ideal.ofBits .f32 0x3F800000#32) := by
  unfold after
  rw [subf_apply, mulf_apply, spread_apply, hostDivf_apply, halves3_apply, alongFeatures_apply, addf_apply, transposed_apply,
    halves4_apply, spreadCol_apply]

end Cert.KernelIdeal.Tail

end
-- ==== Proof.Reference.lean ====
/-
  The reference program's result, read at an index over the extended reals.
-/
import proofs.«159653_j22136261443658_2_alg».proof.Defs
import proofs.«159653_j22136261443658_2_alg».proof.Proof.Gen.ReferenceIdeal.Run
import proofs.«159653_j22136261443658_2_alg».proof.Proof.Gen.ReferenceIdeal.Read
import proofs.«159653_j22136261443658_2_alg».proof.Proof.Spec
import Idealize.ShloMosaic.Lib.ValueIdx
import Idealize.ShloMosaic.Lib.ValueLayout
import Idealize.ShloMosaic.PureOps.Ideal.Laws

noncomputable section

namespace Cert.ReferenceIdeal.AtIndex

open Cert.ReferenceIdeal Cert.ReferenceIdeal.Read Idealize.ShloMosaic Idealize.ShloMosaic.ValueIdx

/-- The first product, at sample `n` and feature `j`: the sample's label-weighted centre. -/
theorem v0_apply (x1 : (⟨S16384x10000, .f32⟩ : BufTy).Contents (Elt Ideal))
    (x2 : (⟨S10000x128, .f32⟩ : BufTy).Contents (Elt Ideal)) (n : Fin 16384) (j : Fin 128) :
    val_main_v0 (F := Ideal) x1 x2 (ix2 n j) = ∑ k : Fin 10000, x1 (ix2 n k) * x2 (ix2 k j) := by
  rw [val_main_v0_apply]
  refine Finset.sum_congr rfl fun k _ => ?_
  have hl : lidx_main_v0 (ix2 n j) k = ix2 n k :=
    funext fun a => Fin.ext (by match a with | ⟨0, _⟩ => rfl | ⟨1, _⟩ => rfl)
  have hr : ridx_main_v0 (ix2 n j) k = ix2 k j :=
    funext fun a => Fin.ext (by match a with | ⟨0, _⟩ => rfl | ⟨1, _⟩ => rfl)
  rw [hl, hr]

/-- The difference between the label-weighted centre and the sample's features. -/
theorem v1_apply (x0 : (⟨S16384x128, .f32⟩ : BufTy).Contents (Elt Ideal))
    (x1 : (⟨S16384x10000, .f32⟩ : BufTy).Contents (Elt Ideal))
    (x2 : (⟨S10000x128, .f32⟩ : BufTy).Contents (Elt Ideal)) (n : Fin 16384) (j : Fin 128) :
    val_main_v1 (F := Ideal) x0 x1 x2 (ix2 n j)
      = (∑ k : Fin 10000, x1 (ix2 n k) * x2 (ix2 k j)) - x0 (ix2 n j) := by
  rw [val_main_v1_apply, v0_apply, Ideal.subf_def]

/-- The second product, at class `c` and feature `d`: the total pull. -/
theorem v3_apply (x0 : (⟨S16384x128, .f32⟩ : BufTy).Contents (Elt Ideal))
    (x1 : (⟨S16384x10000, .f32⟩ : BufTy).Contents (Elt Ideal))
    (x2 : (⟨S10000x128, .f32⟩ : BufTy).Contents (Elt Ideal)) (c : Fin 10000) (d : Fin 128) :
    val_main_v3 (F := Ideal) x0 x1 x2 (ix2 c d)
      = ∑ n : Fin 16384, x1 (ix2 n c) * ((∑ k : Fin 10000, x1 (ix2 n k) * x2 (ix2 k d)) - x0 (ix2 n d)) := by
  rw [val_main_v3_apply]
  refine Finset.sum_congr rfl fun n _ => ?_
  have hl : idx_main_v2 (lidx_main_v3 (ix2 c d) n) = ix2 n c :=
    funext fun a => Fin.ext (by match a with | ⟨0, _⟩ => rfl | ⟨1, _⟩ => rfl)
  have hr : ridx_main_v3 (ix2 c d) n = ix2 n d :=
    funext fun a => Fin.ext (by match a with | ⟨0, _⟩ => rfl | ⟨1, _⟩ => rfl)
  rw [val_main_v2_apply, hl, hr, v1_apply]

/-- The divisor, at class `c` (the same for every feature): zero plus the label mass, plus one. -/
theorem v9_apply (x1 : (⟨S16384x10000, .f32⟩ : BufTy).Contents (Elt Ideal)) (c : Fin 10000) (d : Fin 128) :
    val_main_v9 (F := Ideal) x1 (ix2 c d)
      = (Ideal.ofBits .f32 0x00000000#32 + ∑ n : Fin 16384, x1 (ix2 n c)) + Ideal.ofBits .f32 0x3F800000#32 := by
  rw [val_main_v9_apply, val_main_v8_apply, val_main_v6_apply, val_main_v7_apply, val_main_cst_0_apply,
    val_main_v5_apply, val_main_cst_apply, Ideal.addf_def, Ideal.ofBits_def, Ideal.ofBits_def]
  refine congrArg (fun s => (Ideal.ofBits .f32 0x00000000#32 + s) + Ideal.ofBits .f32 0x3F800000#32)
    (Finset.sum_congr rfl fun n _ => ?_)
  have h : idx_main_v4 (idx_main_v5 (idx_main_v6 (idx_main_v9 (ix2 c d))) n) = ix2 n c :=
    funext fun a => Fin.ext (by match a with | ⟨0, _⟩ => rfl | ⟨1, _⟩ => rfl)
  rw [val_main_v4_apply, h]

/-- The reference's result at class `c` and feature `d` is the updated centre. -/
theorem result_apply (x0 : (⟨S16384x128, .f32⟩ : BufTy).Contents (Elt Ideal))
    (x1 : (⟨S16384x10000, .f32⟩ : BufTy).Contents (Elt Ideal))
    (x2 : (⟨S10000x128, .f32⟩ : BufTy).Contents (Elt Ideal)) (c : Fin 10000) (d : Fin 128) :
    Cert.ReferenceIdeal.Read.val_main_v13 (F := Ideal) x0 x1 x2 (ValueIdx.ix2 c d)
      = Cert.CentreStep.updated (fun n k => x1 (ValueIdx.ix2 n k)) (fun n j => x0 (ValueIdx.ix2 n j))
          (fun k j => x2 (ValueIdx.ix2 k j)) c d := by
  rw [val_main_v13_apply, val_main_v12_apply, val_main_v11_apply, val_main_cst_1_apply, val_main_v10_apply,
    v3_apply, v9_apply, Ideal.subf_def, Ideal.mulf_def, Ideal.hostDivf_def, Ideal.ofBits_def]
  rfl

end Cert.ReferenceIdeal.AtIndex

end
-- ==== Proof.lean ====
/-
  One step of the class-centre update, computed two ways, gives the same centres.

  Inputs: features `P` (16384 samples × 128), labels `L` (16384 samples × 10000 classes), centres `Z` (10000 × 128).
  Both programs compute, for class `c` and feature `d`,
      Z c d - 1/2 * (∑ n, L n c * ((∑ k, L n k * Z k d) - P n d)) / ((0 + ∑ n, L n c) + 1)
  on the extended reals. The reference takes both sums over all 16384 samples at once. The kernel walks 128 blocks of
  128 samples in two halves of 64 blocks, keeps a running total of each sum per half, and adds the two halves' totals
  afterwards. Addition of extended reals is commutative and associative, so regrouping the sums changes nothing, whatever
  the entries are; the hypothesis that the inputs are finite is not used.

  The pieces: `Spec` (the sums and the regrouping law), `Algebra` (from the halves' running totals to the updated
  centre), `Payload` (the body's arithmetic read at an index), `Pieces` (what each of the body's three control cases
  leaves in the accumulators and the outputs), `Blocks` (which rows a grid point loads), `Cover` (where the two halves'
  output blocks sit), `Accum` (the accumulators after every grid point, by induction, and the region's two result
  arrays), `Tail` (the host operations after the region), `Reference` (the reference read at an index).
-/
import proofs.«159653_j22136261443658_2_alg».proof.Defs
import proofs.«159653_j22136261443658_2_alg».proof.Proof.Gen.Kernel
import proofs.«159653_j22136261443658_2_alg».proof.Proof.Gen.Kernel.Skeleton
import proofs.«159653_j22136261443658_2_alg».proof.Proof.Gen.Kernel.Launch
import proofs.«159653_j22136261443658_2_alg».proof.Proof.Gen.Kernel.Points
import proofs.«159653_j22136261443658_2_alg».proof.Proof.Gen.Kernel.Frame
import proofs.«159653_j22136261443658_2_alg».proof.Proof.Gen.KernelIdeal
import proofs.«159653_j22136261443658_2_alg».proof.Proof.Gen.KernelIdeal.Skeleton
import proofs.«159653_j22136261443658_2_alg».proof.Proof.Gen.KernelIdeal.Launch
import proofs.«159653_j22136261443658_2_alg».proof.Proof.Gen.KernelIdeal.Points
import proofs.«159653_j22136261443658_2_alg».proof.Proof.Gen.KernelIdeal.Frame
import proofs.«159653_j22136261443658_2_alg».proof.Proof.Gen.ReferenceIdeal
import proofs.«159653_j22136261443658_2_alg».proof.Proof.Gen.ReferenceIdeal.Run
import proofs.«159653_j22136261443658_2_alg».proof.Proof.Gen.ReferenceIdeal.Read
import proofs.«159653_j22136261443658_2_alg».proof.Proof.Gen.Pre_finite_inputs
import proofs.«159653_j22136261443658_2_alg».proof.Proof.Algebra
import proofs.«159653_j22136261443658_2_alg».proof.Proof.Accum
import proofs.«159653_j22136261443658_2_alg».proof.Proof.Tail
import proofs.«159653_j22136261443658_2_alg».proof.Proof.Reference
import Idealize.ShloMosaic.Adequacy
import Idealize.ShloMosaic.Init

noncomputable section

open Idealize.ShloMosaic Idealize.ShloMosaic.TcCoe Idealize.SL.Sem Idealize.ShloMosaic.ValueIdx

/-! ## The claims -/

namespace Cert.Proof.Claims

open Cert.KernelIdeal.Accum Cert.CentreStep

/-- The word-level kernel runs, and leaves its arguments as it found them. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The two rewrites of the idealization: a narrowing to bf16 followed by the widening back is the identity on the
    extended reals (the label block before its column sums; the column sums themselves). -/
theorem preserves : Cert.preserves_Kernel_KernelIdeal :=
  ⟨IdealRules.truncf_extf.statement _ .f32 .bf16, IdealRules.truncf_extf.statement _ .f32 .bf16⟩

/-- The kernel ends with `centres - 1/2 * (sum of the two halves' pulls) / ((0 + sum of the two halves' label masses) + 1)`,
    the reference with `centres - 1/2 * (total pull) / ((0 + label mass) + 1)`: equal extended reals, entry by entry,
    because the halves' running totals add up to the totals. -/
theorem algebraic : Cert.algebraic_KernelIdeal_ReferenceIdeal := by
  intro m ρ m' ρ' _ hagree
  refine ⟨fun c => Cert.KernelIdeal.Tail.after (gradHalves m c) (countHalves m c)
    (m ((c.tc : Thread Cert.KernelIdeal.nD Cert.KernelIdeal.τ).loc Cert.KernelIdeal.main_arg2)), ?_, ?_⟩
  · refine (θ_run Cert.KernelIdeal.defs _ _).mono (fun _ h c => ⟨?_, (h c).2⟩) (Cert.KernelIdeal.Tail.run (F := Ideal) m ρ)
    rw [(h c).1, grad_final, count_final]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2, Cert.ReferenceIdeal.Read.val_main_v13_eq]
    funext j
    obtain ⟨k, d, rfl⟩ : ∃ (k : Fin 10000) (d : Fin 128), j = ix2 k d := ⟨j 0, j 1, eq_ix2 j⟩
    rw [Cert.ReferenceIdeal.AtIndex.result_apply]
    show _ = Cert.KernelIdeal.Tail.after (F := Ideal) (gradHalves m c) (countHalves m c) _ (ix2 k d)
    rw [Cert.KernelIdeal.Tail.after_apply]
    exact (updated_of_halves (labels m c) (preds m c) (centres m c)
      (fun p k d => gradHalves m c (ix3 p k d)) (fun p k => countHalves m c (ix3 p (0 : Fin 1) k))
      (fun _ _ _ => rfl) (fun _ _ => rfl) k d).symm

end Cert.Proof.Claims

namespace Cert.Proof

open Cert.Proof.Claims

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
